-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000x16 : Shape := ⟨2, ![3200000, 16]⟩
abbrev S3200000x1 : Shape := ⟨2, ![3200000, 1]⟩
abbrev S3200000x3 : Shape := ⟨2, ![3200000, 3]⟩
abbrev S3200000 : Shape := ⟨1, ![3200000]⟩
abbrev S_ : Shape := ⟨0, ![]⟩

class Facts : Prop where
  bcast_S_S3200000x16 : S_.BroadcastsInDim S3200000x16 (![] : Fin 0 → Fin S3200000x16.rank)
  reducesTo_S3200000x16_S_d0_1 : S3200000x16.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S3200000x3 : S_.BroadcastsInDim S3200000x3 (![] : Fin 0 → Fin S3200000x3.rank)
  reducesTo_S3200000x3_S_d0_1 : S3200000x3.ReducesTo [0, 1] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_v13 : IVec S_ 1) (main_v15 : IVec S3200000 1) (main_c_5 : IVec S_ 1) : IVec S_ 1 :=
  let main_v16 : IVec S_ 1 := (fun x v => Host.reduce IntOp.andi x v reducesTo_S3200000_S_d0 h_S_) main_v15 main_c_5
  let main_v17 : IVec S_ 1 := andi main_v13 main_v16
  main_v17

def fn {F : FTy → Type} [FloatOps F] (main_arg0 : FVec F S3200000x16 .f32) (main_arg1 : FVec F S3200000x1 .f32) (main_arg2 : FVec F S3200000x3 .f32) (main_arg3 : IVec S3200000 32) : IVec S_ 1 :=
  let main_v0 : FVec F S3200000x16 .f32 := Host.absf main_arg0
  let main_cst : FVec F S_ .f32 := constant S_ .f32 0x7F800000#32
  let main_v1 : FVec F S3200000x16 .f32 := broadcastInDim S3200000x16 ![] bcast_S_S3200000x16 main_cst
  let main_v2 : IVec S3200000x16 1 := cmpf .olt main_v0 main_v1
  let main_c : IVec S_ 1 := constantI S_ 1 1#1
  let main_v3 : IVec S_ 1 := (fun x v => Host.reduce IntOp.andi x v reducesTo_S3200000x16_S_d0_1 h_S_) main_v2 main_c
  let main_v4 : FVec F S3200000x1 .f32 := Host.absf main_arg1
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S3200000x3 .f32 := Host.absf main_arg2
  let main_cst_2 : FVec F S_ .f32 := constant S_ .f32 0x7F800000#32
  let main_v10 : FVec F S3200000x3 .f32 := broadcastInDim S3200000x3 ![] bcast_S_S3200000x3 main_cst_2
  let main_v11 : IVec S3200000x3 1 := cmpf .olt main_v9 main_v10
  let main_c_3 : IVec S_ 1 := constantI S_ 1 1#1
  let main_v12 : IVec S_ 1 := (fun x v => Host.reduce IntOp.andi x v reducesTo_S3200000x3_S_d0_1 h_S_) main_v11 main_c_3
  let main_v13 : IVec S_ 1 := andi main_v8 main_v12
  let main_c_4 : IVec S_ 32 := constantI S_ 32 100000#32
  let main_v14 : IVec S3200000 32 := broadcastInDim S3200000 ![] bcast_S_S3200000 main_c_4
  let main_v15 : IVec S3200000 1 := cmpi .slt main_arg3 main_v14
  let main_c_5 : IVec S_ 1 := constantI S_ 1 1#1
  fn_part1 (F := F) main_v13 main_v15 main_c_5
-- ==== Kernel.lean ====
abbrev S3200000x16 : Shape := ⟨2, ![3200000, 16]⟩
abbrev S3200000x1 : Shape := ⟨2, ![3200000, 1]⟩
abbrev S3200000x3 : Shape := ⟨2, ![3200000, 3]⟩
abbrev S3200000 : Shape := ⟨1, ![3200000]⟩
abbrev S400000x128 : Shape := ⟨2, ![400000, 128]⟩
abbrev S400000x8 : Shape := ⟨2, ![400000, 8]⟩
abbrev S4000x128 : Shape := ⟨2, ![4000, 128]⟩
abbrev S4000x8 : Shape := ⟨2, ![4000, 8]⟩
abbrev S4000x8x1 : Shape := ⟨3, ![4000, 8, 1]⟩
abbrev S4000x8x16 : Shape := ⟨3, ![4000, 8, 16]⟩
abbrev S_ : Shape := ⟨0, ![]⟩
abbrev S100000x16 : Shape := ⟨2, ![100000, 16]⟩
abbrev S3100000x16 : Shape := ⟨2, ![3100000, 16]⟩

abbrev nBuf : Space → Nat
  | .hbm => 15
  | .vmem => 6
  | .smem => 0
  | _ => 0

abbrev bufTy : (tb : Table) → Fin (tcTables nBuf tb) → BufTy
  | .hbm, ⟨0, _⟩ => ⟨S3200000x16, .f32⟩
  | .hbm, ⟨1, _⟩ => ⟨S3200000x1, .f32⟩
  | .hbm, ⟨2, _⟩ => ⟨S3200000x3, .f32⟩
  | .hbm, ⟨3, _⟩ => ⟨S3200000, .i32⟩
  | .hbm, ⟨4, _⟩ => ⟨S400000x128, .f32⟩
  | .hbm, ⟨5, _⟩ => ⟨S400000x8, .f32⟩
  | .hbm, ⟨6, _⟩ => ⟨S400000x128, .f32⟩
  | .hbm, ⟨7, _⟩ => ⟨S3200000x16, .f32⟩
  | .hbm, ⟨8, _⟩ => ⟨S_, .f32⟩
  | .hbm, ⟨9, _⟩ => ⟨S100000x16, .f32⟩
  | .hbm, ⟨10, _⟩ => ⟨S3200000x1, .i32⟩
  | .hbm, ⟨11, _⟩ => ⟨S100000x16, .f32⟩
  | .hbm, ⟨12, _⟩ => ⟨S_, .f32⟩
  | .hbm, ⟨13, _⟩ => ⟨S3100000x16, .f32⟩
  | .hbm, ⟨14, _⟩ => ⟨S3200000x16, .f32⟩
  | .local _ .vmem, ⟨0, _⟩ => ⟨S4000x128, .f32⟩
  | .local _ .vmem, ⟨1, _⟩ => ⟨S4000x128, .f32⟩
  | .local _ .vmem, ⟨2, _⟩ => ⟨S4000x8, .f32⟩
  | .local _ .vmem, ⟨3, _⟩ => ⟨S4000x8, .f32⟩
  | .local _ .vmem, ⟨4, _⟩ => ⟨S4000x128, .f32⟩
  | .local _ .vmem, ⟨5, _⟩ => ⟨S4000x128, .f32⟩
  | _, _ => ⟨S3200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S3200000x16_S400000x128 : S3200000x16.ShapeCasts S400000x128
  shapeCasts_S3200000x1_S400000x8 : S3200000x1.ShapeCasts S400000x8
  inb_S4000x8_S4000x8_0_0 : ∀ a, (![0, 0] : Fin 2 → Nat) a + S4000x8.size a ≤ S4000x8.size a
  h_S4000x8 : 0 < S4000x8.numel
  shapeCasts_S4000x8_S4000x8 : S4000x8.ShapeCasts S4000x8
  shapeCasts_S4000x8_S4000x8x1 : S4000x8.ShapeCasts S4000x8x1
  shapeCasts_S4000x8x1_S4000x8x1 : S4000x8x1.ShapeCasts S4000x8x1
  broadcasts_S4000x8x1_S4000x8x16 : S4000x8x1.Broadcasts S4000x8x16
  shapeCasts_S4000x8x16_S4000x128 : S4000x8x16.ShapeCasts S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S400000x128_S3200000x16 : S400000x128.ShapeCasts S3200000x16
  bcast_S_S100000x16 : S_.BroadcastsInDim S100000x16 (![] : Fin 0 → Fin S100000x16.rank)
  bcast_S3200000_S3200000x1_0 : S3200000.BroadcastsInDim S3200000x1 (![0] : Fin 1 → Fin S3200000x1.rank)
  bcast_S_S3100000x16 : S_.BroadcastsInDim S3100000x16 (![] : Fin 0 → Fin S3100000x16.rank)
  concatenates_S100000x16_S3100000x16_S3200000x16_d0 : Shape.Concatenates [S100000x16, S3100000x16] S3200000x16 0
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S400000x128.size a
  hwx0_0 : ∀ i : grid0.Coords, EltTy.bits .f32 = 32 ∨ (Rect.block (s := S400000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x8.size a ≤ S400000x8.size a
  hwx0_1 : ∀ i : grid0.Coords, EltTy.bits .f32 = 32 ∨ (Rect.block (s := S400000x8) S4000x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S400000x128.size a
  hwx0_2 : ∀ i : grid0.Coords, EltTy.bits .f32 = 32 ∨ (Rect.block (s := S400000x128) S4000x128.size (cc0_transform_2 i) (hinb0_2 i)).WholeWords (EltTy.packing .f32)

variable [Facts₀]

def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3200000x16 : Shape := ⟨2, ![3200000, 16]⟩
abbrev S3200000x1 : Shape := ⟨2, ![3200000, 1]⟩
abbrev S3200000x3 : Shape := ⟨2, ![3200000, 3]⟩
abbrev S3200000 : Shape := ⟨1, ![3200000]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S3200000x16, .f32⟩
  | .hbm, ⟨1, _⟩ => ⟨S3200000x1, .f32⟩
  | .hbm, ⟨2, _⟩ => ⟨S3200000x3, .f32⟩
  | .hbm, ⟨3, _⟩ => ⟨S3200000, .i32⟩
  | .hbm, ⟨4, _⟩ => ⟨S_, .f32⟩
  | .hbm, ⟨5, _⟩ => ⟨S3200000x1, .f32⟩
  | .hbm, ⟨6, _⟩ => ⟨S3200000x1, .f32⟩
  | .hbm, ⟨7, _⟩ => ⟨S_, .f32⟩
  | .hbm, ⟨8, _⟩ => ⟨S3200000x1, .f32⟩
  | .hbm, ⟨9, _⟩ => ⟨S3200000x1, .f32⟩
  | .hbm, ⟨10, _⟩ => ⟨S3200000x1, .f32⟩
  | .hbm, ⟨11, _⟩ => ⟨S_, .f32⟩
  | .hbm, ⟨12, _⟩ => ⟨S3200000x1, .f32⟩
  | .hbm, ⟨13, _⟩ => ⟨S3200000x1, .f32⟩
  | .hbm, ⟨14, _⟩ => ⟨S_, .f32⟩
  | .hbm, ⟨15, _⟩ => ⟨S3200000x1, .f32⟩
  | .hbm, ⟨16, _⟩ => ⟨S3200000x1, .f32⟩
  | .hbm, ⟨17, _⟩ => ⟨S_, .f32⟩
  | .hbm, ⟨18, _⟩ => ⟨S3200000x1, .f32⟩
  | .hbm, ⟨19, _⟩ => ⟨S3200000x1, .i1⟩
  | .hbm, ⟨20, _⟩ => ⟨S_, .f32⟩
  | .hbm, ⟨21, _⟩ => ⟨S_, .f32⟩
  | .hbm, ⟨22, _⟩ => ⟨S3200000x1, .f32⟩
  | .hbm, ⟨23, _⟩ => ⟨S3200000x1, .f32⟩
  | .hbm, ⟨24, _⟩ => ⟨S3200000x16, .f32⟩
  | .hbm, ⟨25, _⟩ => ⟨S3200000x16, .f32⟩
  | .hbm, ⟨26, _⟩ => ⟨S_, .f32⟩
  | .hbm, ⟨27, _⟩ => ⟨S3200000x16, .f32⟩
  | .hbm, ⟨28, _⟩ => ⟨S3200000x1, .i32⟩
  | .hbm, ⟨29, _⟩ => ⟨S3200000x16, .f32⟩
  | .hbm, ⟨30, _⟩ => ⟨S_, .f32⟩
  | .hbm, ⟨31, _⟩ => ⟨S3200000x16, .f32⟩
  | .hbm, ⟨32, _⟩ => ⟨S3200000x16, .f32⟩
  | _, _ => ⟨S3200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  bcast_S_S3200000x1 : S_.BroadcastsInDim S3200000x1 (![] : Fin 0 → Fin S3200000x1.rank)
  bcast_S3200000x1_S3200000x16_0_1 : S3200000x1.BroadcastsInDim S3200000x16 (![0, 1] : Fin 2 → Fin S3200000x16.rank)
  bcast_S_S3200000x16 : S_.BroadcastsInDim S3200000x16 (![] : Fin 0 → Fin S3200000x16.rank)
  bcast_S3200000_S3200000x1_0 : S3200000.BroadcastsInDim S3200000x1 (![0] : Fin 1 → Fin S3200000x1.rank)
  scatter_S3200000x16_S3200000x1_S3200000x16_1_0_0_1_wf : ScatterDims.WF S3200000x16 S3200000x1 S3200000x16 [1] [0] [0] 1

variable [Facts₀]

def scatter_S3200000x16_S3200000x1_S3200000x16_1_0_0_1 : ScatterDims S3200000x16 S3200000x1 S3200000x16 where
  updateWindowDims := [1]
  insertedWindowDims := [0]
  scatterDimsToOperandDims := [0]
  indexVectorDim := 1
  wf := scatter_S3200000x16_S3200000x1_S3200000x16_1_0_0_1_wf

class Facts : Prop extends Facts₀ where

variable [Facts]
-- ==== Proof.CutoffSum.lean ====
/-
  THE CUTOFF-WEIGHTED NEIGHBOUR SUM, as arithmetic on the extended reals (no program is mentioned).

  An edge of length r carries the cosine cutoff weight  cut(r) = 1/2 * (cos(p * r / 5) + 1)  when r < 5 and 0
  otherwise, p being the f32 word nearest pi (kept as its word: both programs spell the same word, so it is never
  evaluated). Node n's row is the sum of the sender rows of the edges that n receives, each scaled by its edge's
  weight, divided by 32 neighbours. One program scales every edge's weight by 1/32 before the sum, the other
  scales the finished sum (both sums start from a zero array):
      0 + sum_e s_e * (cut_e * k)  =  (0 + sum_e s_e * cut_e) * k
  On the extended reals this holds for every finite k >= 0 whatever the summands are: multiplication by such a k
  distributes over +, and * is associative. So no summand needs to be finite.
-/
import Idealize.ShloMosaic.PureOps.Ideal
import Mathlib

noncomputable section

open scoped BigOperators
open Idealize.ShloMosaic

namespace Cert.CutoffSum

/-- The word `0x3D000000` denotes the real 1/32 (one over the average number of neighbours). -/
theorem ofBits_inv32 : Ideal.ofBits .f32 0x3D000000#32 = ((1 / 32 : ℝ) : EReal) := by
  simp [Ideal.ofBits, Ideal.ieee, -EReal.coe_mul]; norm_num

/-- The word `0x00000000` denotes 0. -/
theorem ofBits_zero : Ideal.ofBits .f32 0x00000000#32 = 0 := by
  simp [Ideal.ofBits, Ideal.ieee]

/-- 1/32 is nonnegative and finite. -/
theorem inv32_nonneg : (0 : EReal) ≤ Ideal.ofBits .f32 0x3D000000#32 := by
  rw [ofBits_inv32]; exact_mod_cast (by norm_num : (0 : ℝ) ≤ 1 / 32)

theorem inv32_ne_top : Ideal.ofBits .f32 0x3D000000#32 ≠ ⊤ := by
  rw [ofBits_inv32]; exact EReal.coe_ne_top _

/-- The cosine cutoff weight of an edge of length `r`: `1/2 * (cos (p * r / 5) + 1)` inside the radius `5`, `0`
    outside it. -/
def cutoff (r : EReal) : EReal :=
  Scalar.select (Ideal.cmp .olt r (Ideal.ofBits .f32 0x40A00000#32))
    (Ideal.ofBits .f32 0x3F000000#32
      * (Ideal.cos (Ideal.div (Ideal.ofBits .f32 0x40490FDB#32 * r) (Ideal.ofBits .f32 0x40A00000#32))
          + Ideal.ofBits .f32 0x3F800000#32))
    (Ideal.ofBits .f32 0x00000000#32)

/-- Multiplication by a finite nonnegative number distributes over a finite sum of extended reals. -/
theorem sum_mul_of_nonneg_of_ne_top {ι : Type*} (s : Finset ι) (f : ι → EReal) {k : EReal} (h0 : 0 ≤ k)
    (ht : k ≠ ⊤) : (∑ e ∈ s, f e) * k = ∑ e ∈ s, f e * k := by
  classical
  induction s using Finset.induction_on with
  | empty => simp
  | insert a s ha ih =>
    rw [Finset.sum_insert ha, Finset.sum_insert ha, EReal.right_distrib_of_nonneg_of_ne_top h0 ht, ih]

/-- THE LAW THAT JOINS THE TWO PROGRAMS: weights scaled by 1/32 edge by edge and then summed from 0, against the
    weighted sum from 0 scaled by 1/32 once. -/
theorem scale_each_eq_scale_sum {ι : Type*} (s : Finset ι) (a c : ι → EReal) :
    0 + ∑ e ∈ s, a e * (c e * Ideal.ofBits .f32 0x3D000000#32)
      = (0 + ∑ e ∈ s, a e * c e) * Ideal.ofBits .f32 0x3D000000#32 := by
  rw [zero_add, zero_add, sum_mul_of_nonneg_of_ne_top s _ inv32_nonneg inv32_ne_top]
  exact Finset.sum_congr rfl fun e _ => (mul_assoc _ _ _).symm

end Cert.CutoffSum

end
-- ==== Proof.BodyAtIndex.lean ====
/-
  THE KERNEL BODY AT AN INDEX (at the ideal instance).

  A block holds 4000 rows of 128 lanes: row p packs 8 consecutive edges, edge group g = q / 16 owning the 16 lanes
  16 g .. 16 g + 15. Beside it the block of lengths has 8 entries per row, one per group. The body computes, for
  every group, the cutoff weight of its length scaled by 1/32, spreads it over the group's 16 lanes
  ([4000,8] -> [4000,8,1] -> [4000,8,16] -> [4000,128]), and multiplies the sender block by it lane by lane. So the
  stored value at (p, q) is   senders(p, q) * (cut(lengths(p, q / 16)) * 1/32).
-/
import proofs.«122796_j82712480186400_2_alg».proof.Proof.Gen.KernelIdeal.Skeleton
import proofs.«122796_j82712480186400_2_alg».proof.Proof.CutoffSum
import Idealize.ShloMosaic.Lib.ValueIdx
import Idealize.ShloMosaic.Lib.Pipeline.Value

noncomputable section

namespace Cert.KernelIdeal.Body

open Idealize.ShloMosaic Idealize.ShloMosaic.ValueIdx Cert.KernelIdeal Cert.KernelIdeal.Gen

/-- A per-group column spread over the lanes: the [4000,8] array viewed as [4000,8,1], repeated 16 times along the
    new axis and flattened to [4000,128], reads at (p, q) the entry of group q / 16. -/
theorem spread_apply {α : Type} (w : S4000x8.Idx → α) (h1 : S4000x8.ShapeCasts S4000x8x1)
    (h1' : S4000x8x1.ShapeCasts S4000x8x1) (h2 : S4000x8x1.Broadcasts S4000x8x16)
    (h3 : S4000x8x16.ShapeCasts S4000x128) (p : Fin 4000) (q : Fin 128) :
    shapeCast S4000x128 (broadcastTo S4000x8x16 (shapeCast S4000x8x1 (shapeCast S4000x8x1 w h1) h1') h2) h3 (ix2 p q)
      = w (ix2 p ⟨q.val / 16, by omega⟩) := by
  refine (shapeCast_apply _ h3 (ix2 p q) (ix3 p ⟨q.val / 16, by omega⟩ ⟨q.val % 16, by omega⟩) ?_).trans ?_
  · rw [Shape.rowMajor_val_three, Shape.rowMajor_val_two]
    show (p.val * 8 + q.val / 16) * 16 + q.val % 16 = p.val * 128 + q.val
    omega
  refine (broadcastTo_apply _ h2 _ (ix3 p ⟨q.val / 16, by omega⟩ 0) ?_).trans ?_
  · intro a
    match a with
    | ⟨0, _⟩ => rfl
    | ⟨1, _⟩ => rfl
    | ⟨2, _⟩ => rfl
  rw [shapeCast_self]
  refine shapeCast_apply _ h1 _ (ix2 p ⟨q.val / 16, by omega⟩) ?_
  rw [Shape.rowMajor_val_three, Shape.rowMajor_val_two]
  show p.val * 8 + q.val / 16 = (p.val * 8 + q.val / 16) * 1 + 0
  omega

/-- THE STORED VALUE AT (p, q): the sender entry times the scaled cutoff weight of its edge group's length. -/
theorem pay_apply (v0 : Vec Ideal S4000x8 .f32) (v21 : Vec Ideal S4000x128 .f32) (p : Fin 4000) (q : Fin 128) :
    k0_pay1 (F := Ideal) v0 v21 (ix2 p q)
      = v21 (ix2 p q)
        * (CutoffSum.cutoff (v0 (ix2 p ⟨q.val / 16, by omega⟩)) * Ideal.ofBits .f32 0x3D000000#32) := by
  unfold k0_pay1
  rw [mulf_apply, shapeCast_self, spread_apply, shapeCast_self]
  rfl

end Cert.KernelIdeal.Body

end
-- ==== Proof.ScaledArray.lean ====
/-
  FROM BLOCKS TO THE ARRAY (at the ideal instance).

  The region works on the packed arrays: senders as [400000,128] (row r packs edges 8r .. 8r+7, edge group g in
  lanes 16g .. 16g+15) and lengths as [400000,8] (row r, column g is the length of edge 8r+g). Grid point t takes
  rows 4000t .. 4000t+3999 of both and writes the same rows of the result. Since the body acts lane by lane within
  a row, what point t writes back is block t of ONE function of the two packed arrays,
      scaledPacked X L (r, q) = X(r, q) * (cut(L(r, q / 16)) * 1/32),
  and the 100 blocks tile the 400000 rows (row r lies in block r / 4000), so the result array ends holding it.
-/
import proofs.«122796_j82712480186400_2_alg».proof.Proof.Gen.KernelIdeal.Frame
import proofs.«122796_j82712480186400_2_alg».proof.Proof.BodyAtIndex
import Idealize.ShloMosaic.Lib.Pipeline.Value

set_option maxRecDepth 16384

noncomputable section

namespace Cert.KernelIdeal.Scaled

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The scaled senders in packed form: entry (r, q) of the packed senders times the scaled cutoff weight of the
    length in row r, group q / 16. -/
def scaledPacked (X : S400000x128.Idx → EReal) (L : S400000x8.Idx → EReal) : S400000x128.Idx → EReal :=
  fun i => X i * (CutoffSum.cutoff (L (ix2 (i 0) ⟨(i 1).val / 16, by have := idx2_lt1 i; omega⟩))
    * Ideal.ofBits .f32 0x3D000000#32)

/-- `scaledPacked` at an index, from the two entries it is made of. -/
theorem scaledPacked_at (X : S400000x128.Idx → EReal) (L : S400000x8.Idx → EReal) (i0 i2 : S400000x128.Idx)
    (i1 : S400000x8.Idx) (h0 : i0 = i2)
    (h1 : i1 = ix2 (i2 0) ⟨(i2 1).val / 16, by have := idx2_lt1 i2; omega⟩) :
    X i0 * (CutoffSum.cutoff (L i1) * Ideal.ofBits .f32 0x3D000000#32) = scaledPacked X L i2 := by
  subst h0 h1
  rfl

theorem origin_zero : (![0, 0] : Fin 2 → Nat) = fun _ => 0 := funext fun a => by fin_cases a <;> rfl

/-- The three windows move together: at point `t` each takes block row `t`, block column `0`. -/
theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `scaledPacked` of the packed arrays as the region finds them. -/
theorem flushed_eq (c : Dev nD) (t : Fin cfg0.N) :
    (dats m 0 c).flushed 2 t
      = ((cfg0.win 2).blk t).view.read (Elt Ideal) (scaledPacked (V m c main_v0) (V m c main_v1)) := by
  show (cfg0.win 2).cut (grid0.coords t) ((dats m 0 c).after 2 t) = _
  rw [after0_2]
  unfold out0_2
  rw [View.canon_unit_zero origin_zero]
  simp only [View.ld_unit_zero (S := S4000x128) origin_zero, View.ld_unit_zero (S := S4000x8) origin_zero]
  obtain ⟨e0, e1, e2, e3, e4, e5⟩ := block_indices t
  funext j
  obtain ⟨p, q, rfl⟩ : ∃ (p : Fin 4000) (q : Fin 128), j = ix2 p q := ⟨j 0, j 1, eq_ix2 j⟩
  show k0_pay1 (F := Ideal) (iblk m c 1 t) (iblk m c 0 t) (ix2 p q)
    = scaledPacked (V m c main_v0) (V m c main_v1) (((cfg0.win 2).blk t).view.emb (ix2 p q))
  refine (Body.pay_apply (iblk m c 1 t) (iblk m c 0 t) p q).trans ?_
  have h0 : ((cfg0.win 0).blk t).view.emb (ix2 p q) = ((cfg0.win 2).blk t).view.emb (ix2 p q) := by
    funext a; apply Fin.ext
    match a with
    | ⟨0, _⟩ =>
      show win0_0.index t (0 : Fin 2) * 4000 + 1 * p.val = win0_2.index t (0 : Fin 2) * 4000 + 1 * p.val
      omega
    | ⟨1, _⟩ =>
      show win0_0.index t (1 : Fin 2) * 128 + 1 * q.val = win0_2.index t (1 : Fin 2) * 128 + 1 * q.val
      omega
  have h1 : ((cfg0.win 1).blk t).view.emb (ix2 p (⟨q.val / 16, by omega⟩ : Fin 8))
      = ix2 ((((cfg0.win 2).blk t).view.emb (ix2 p q)) 0)
          ⟨((((cfg0.win 2).blk t).view.emb (ix2 p q)) 1).val / 16,
            by have := idx2_lt1 (((cfg0.win 2).blk t).view.emb (ix2 p q)); omega⟩ := by
    funext a; apply Fin.ext
    match a with
    | ⟨0, _⟩ =>
      show win0_1.index t (0 : Fin 2) * 4000 + 1 * p.val = win0_2.index t (0 : Fin 2) * 4000 + 1 * p.val
      omega
    | ⟨1, _⟩ =>
      show win0_1.index t (1 : Fin 2) * 8 + 1 * (q.val / 16) = (win0_2.index t (1 : Fin 2) * 128 + 1 * q.val) / 16
      omega
  exact scaledPacked_at (V m c main_v0) (V m c main_v1) _ _ _ h0 h1

/-- An index of the array is in point `t`'s block iff each coordinate is in the block's range on its axis. -/
theorem mem_blk (t : Fin cfg0.N) (i : S400000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v2).slice (win0_2.rect t)).set ↔ _
  rw [View.set_slice_whole, Rect.mem_set_unit]
  exact Iff.rfl

/-- Every row of the array lies in a block: row `r` in the block of point `r / 4000`. -/
theorem cover (i : S400000x128.Idx) :
    ∃ t : Fin cfg0.N, (cfg0.win 2).flush t = true ∧ i ∈ ((cfg0.win 2).blk t).view.set := by
  have hi0 : (i 0).val < 400000 := idx2_lt0 i
  have hi1 : (i 1).val < 128 := idx2_lt1 i
  have hN : (i 0).val / 4000 < cfg0.N := by
    show (i 0).val / 4000 < grid0.N
    rw [N_0]; omega
  refine ⟨⟨(i 0).val / 4000, hN⟩, flush0_2 _, ?_⟩
  obtain ⟨-, -, -, -, e4, e5⟩ := block_indices ⟨(i 0).val / 4000, hN⟩
  have e4' : win0_2.index ⟨(i 0).val / 4000, hN⟩ (0 : Fin 2) = (i 0).val / 4000 := e4
  rw [mem_blk]
  intro a
  match a with
  | ⟨0, _⟩ =>
    show win0_2.index ⟨(i 0).val / 4000, hN⟩ (0 : Fin 2) * 4000 ≤ (i 0).val
      ∧ (i 0).val < win0_2.index ⟨(i 0).val / 4000, hN⟩ (0 : Fin 2) * 4000 + 4000
    omega
  | ⟨1, _⟩ =>
    show win0_2.index ⟨(i 0).val / 4000, hN⟩ (1 : Fin 2) * 128 ≤ (i 1).val
      ∧ (i 1).val < win0_2.index ⟨(i 0).val / 4000, hN⟩ (1 : Fin 2) * 128 + 128
    omega

/-- THE RESULT ARRAY OF THE REGION: `scaledPacked` of the packed arrays. -/
theorem final (c : Dev nD) :
    (dats m 0 c).arrAt 2 cfg0.N = scaledPacked (V m c main_v0) (V m c main_v1) :=
  (dats m 0 c).arrAt_eq_of_cover 2 _ (fun t _ => flushed_eq m c t) (cover)

end Cert.KernelIdeal.Scaled

end
-- ==== Proof.KernelResult.lean ====
/-
  THE KERNEL PROGRAM'S RESULT AS ONE TERM OF ITS ARGUMENTS (at the ideal instance).

  Before the region the host packs senders [3200000,16] as [400000,128] and lengths [3200000,1] as [400000,8]
  (row-major reshapes: 8 consecutive edges per row). The region leaves the packed scaled senders. After it the host
  unpacks them to [3200000,16], adds each edge's row into the row of its receiver in a [100000,16] array of zeros
  (edges whose receiver index is negative or at least 100000 are dropped), and appends 3100000 rows of zeros.
-/
import proofs.«122796_j82712480186400_2_alg».proof.Proof.ScaledArray
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg)

/-- The region finds the senders packed 8 edges to a row. -/
theorem packed_senders (c : Dev nD) :
    (V m c main_v0 : S400000x128.Idx → EReal)
      = shapeCast S400000x128 (m ((c : Thread nD τ).loc main_arg0)) shapeCasts_S3200000x16_S400000x128 := by
  show StableHlo.after hostOps0 (fun b => m (c, b)) (Proc.devRef .tc main_v0) = _
  after_results
  rfl

/-- The region finds the lengths packed 8 edges to a row. -/
theorem packed_lengths (c : Dev nD) :
    (V m c main_v1 : S400000x8.Idx → EReal)
      = shapeCast S400000x8 (m ((c : Thread nD τ).loc main_arg1)) shapeCasts_S3200000x1_S400000x8 := by
  show StableHlo.after hostOps0 (fun b => m (c, b)) (Proc.devRef .tc main_v1) = _
  after_results
  rfl

/-- The program's result as a term of the three arguments it reads. -/
def resultTerm (senders : S3200000x16.Idx → EReal) (lengths : S3200000x1.Idx → EReal) (recv : IVec S3200000 32) :
    S3200000x16.Idx → EReal :=
  concatenate S3200000x16 0
    [⟨S100000x16, Host.scatterAdd (F := Ideal) scatter_S100000x16_S3200000x1_S3200000x16_1_0_0_1
        (broadcastInDim S100000x16 ![] bcast_S_S100000x16 (constant (F := Ideal) S_ .f32 0x00000000#32))
        (broadcastInDim S3200000x1 ![0] bcast_S3200000_S3200000x1_0 recv)
        (shapeCast S3200000x16
          (Scaled.scaledPacked (shapeCast S400000x128 senders shapeCasts_S3200000x16_S400000x128)
            (shapeCast S400000x8 lengths shapeCasts_S3200000x1_S400000x8))
          shapeCasts_S400000x128_S3200000x16)⟩,
     ⟨S3100000x16, broadcastInDim S3100000x16 ![] bcast_S_S3100000x16 (constant (F := Ideal) S_ .f32 0x00000000#32)⟩]
    concatenates_S100000x16_S3100000x16_S3200000x16_d0

/-- What the host lines after the region leave in the result buffer. -/
theorem tail_result (c : Dev nD) :
    Pipeline.afterTail₀ cfgs (dats m) 0 (V0 m) [hostOps1] c main_v8
      = resultTerm (m ((c : Thread nD τ).loc main_arg0)) (m ((c : Thread nD τ).loc main_arg1))
          (m ((c : Thread nD τ).loc main_arg3)) := by
  unfold Pipeline.afterTail₀
  show StableHlo.after hostOps1 _ (Proc.devRef .tc main_v8) = _
  after_results
  have hrecv : Pipeline.withArrays (cfgs 0).spec c (V0 m c) (fun w => (dats m 0 c).arrAt w (cfgs 0).N)
      (Proc.devRef .tc main_arg3) = m ((c : Thread nD τ).loc main_arg3) :=
    (Pipeline.withArrays_of_ne _ c (V0 m c) _ main_arg3
      (by exact (by decide : ∀ w, Pipeline.arrRef spec0 w ≠ main_arg3))).trans (V_main_arg3 m c)
  have hscaled : Pipeline.withArrays (cfgs 0).spec c (V0 m c) (fun w => (dats m 0 c).arrAt w (cfgs 0).N)
      (Proc.devRef .tc main_v2)
        = Scaled.scaledPacked
            (shapeCast S400000x128 (m ((c : Thread nD τ).loc main_arg0)) shapeCasts_S3200000x16_S400000x128)
            (shapeCast S400000x8 (m ((c : Thread nD τ).loc main_arg1)) shapeCasts_S3200000x1_S400000x8) :=
    (Pipeline.withArrays_arr spec0 launch0.win.arr_inj c _ _ 2).trans
      ((Scaled.final m c).trans (by rw [packed_senders, packed_lengths]))
  rw [hrecv, hscaled]
  rfl

/-- THE KERNEL PROGRAM'S RUN, READ: every weakly fair execution terminates with the result buffer at `resultTerm` of
    the arguments and the arguments unchanged. -/
theorem run : θ_run defs (onTc (τ := τ) (main (F := Ideal))) ⟨m, fun _ => 0, ρ⟩ (fun r => ∀ c : Dev nD,
      r.2.mem ((c.tc : Thread nD τ).loc main_v8)
        = resultTerm (m ((c.tc : Thread nD τ).loc main_arg0)) (m ((c.tc : Thread nD τ).loc main_arg1))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v8 (Pipeline.mem_restRefs_of main_v8 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.LibScatterRows.lean ====
/-
  THE HOST'S ACCUMULATING ROW SCATTER, READ AT COORDINATES (at the ideal instance; no program is mentioned).

  `stablehlo.scatter` with an `add` body, an operand of rows `[N, D]` (or a vector `[N]`), scatter indices a
  column `[E, 1]` of integers and updates `[E, D]` (or `[E]`), with update_window_dims `[1]` (or none),
  inserted_window_dims `[0]`, scatter_dims_to_operand_dims `[0]` and index_vector_dim `1`: update row `e` is added
  to operand row `idx[e, 0]`, the index read as a SIGNED integer and NOT clamped; a row whose index is negative or
  at least `N` is dropped. This is what a segment sum over `E` items into `N` segments is.

  Contents. `resultIdx_eq_some_iff`: for any dimension numbers, update index `j` lands at operand index `i` exactly
  when start plus window coordinate equals `i`'s coordinate on every axis, as integers. For the two records above: the
  start and the window coordinate on each axis as plain values (`start_rows_zero` … `window_vec_zero`), which update
  lands at which element (`resultIdx_rows_iff`, `resultIdx_vec_iff`), and the scatter read at an element as the
  operand's element plus a sum over the update rows `e` with `(idx (ix2 e 0)).toInt = n`
  (`scatterAdd_rows_apply`, `scatterAdd_vec_apply`). Every statement is generic in the extents, the index width and
  the float format, and holds for any witness of the dimension numbers' conditions.
-/
import Idealize.ShloMosaic.PureOps.Ideal
import Idealize.ShloMosaic.PureOps.Ideal.Laws
import Idealize.ShloMosaic.Lib.ValueIdx
import Mathlib

noncomputable section

open scoped BigOperators
open Idealize.ShloMosaic Idealize.ShloMosaic.ValueIdx

namespace ScatterRows

/-- The landing index of a scatter update, read as equations between integers: update index `j` lands at operand
    index `i` exactly when on every operand axis the window's signed start plus the window coordinate is `i`'s
    coordinate. -/
theorem resultIdx_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hb
      have h' := Option.some.inj h
      have ha : (d.start j idx a + (d.window j a : ℤ)).toNat = (i a).val := congrArg (fun f => (f a).val) h'
      have := (hb a).1
      omega
    · cases h
  · intro h
    have hb : ∀ a, 0 ≤ d.start j idx a + (d.window j a : ℤ) ∧ d.start j idx a + (d.window j a : ℤ) < s.size a := by
      intro a
      rw [h a]
      exact ⟨Int.natCast_nonneg _, by exact_mod_cast (i a).isLt⟩
    rw [dif_pos hb]
    congr 1
    funext a
    refine Fin.ext ?_
    show (d.start j idx a + (d.window j a : ℤ)).toNat = (i a).val
    rw [h a]
    exact Int.toNat_natCast _

section Rows
variable {N D E w : Nat}

/-- On the operand's row axis the window of update `(e, c')` starts at the index read at `(e, 0)`, as a signed
    integer. -/
theorem start_rows_zero (wf : ScatterDims.WF (⟨2, ![N, D]⟩ : Shape) ⟨2, ![E, 1]⟩ ⟨2, ![E, D]⟩ [1] [0] [0] 1)
    (idx : IVec ⟨2, ![E, 1]⟩ w) (e : Fin E) (c' : Fin D) :
    (⟨[1], [0], [0], 1, wf⟩ : ScatterDims ⟨2, ![N, D]⟩ ⟨2, ![E, 1]⟩ ⟨2, ![E, D]⟩).start (ix2 e c') idx 0
      = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- On the operand's column axis, which the index vector does not name, the window starts at `0`. -/
theorem start_rows_one (wf : ScatterDims.WF (⟨2, ![N, D]⟩ : Shape) ⟨2, ![E, 1]⟩ ⟨2, ![E, D]⟩ [1] [0] [0] 1)
    (idx : IVec ⟨2, ![E, 1]⟩ w) (e : Fin E) (c' : Fin D) :
    (⟨[1], [0], [0], 1, wf⟩ : ScatterDims ⟨2, ![N, D]⟩ ⟨2, ![E, 1]⟩ ⟨2, ![E, D]⟩).start (ix2 e c') idx 1 = 0 := by
  unfold ScatterDims.start
  rw [dif_neg (show (1 : Fin 2) ∉ ([0] : List (Fin 2)) by decide)]

/-- The row axis is an inserted window axis: the window coordinate on it is `0`. -/
theorem window_rows_zero (wf : ScatterDims.WF (⟨2, ![N, D]⟩ : Shape) ⟨2, ![E, 1]⟩ ⟨2, ![E, D]⟩ [1] [0] [0] 1)
    (e : Fin E) (c' : Fin D) :
    (⟨[1], [0], [0], 1, wf⟩ : ScatterDims ⟨2, ![N, D]⟩ ⟨2, ![E, 1]⟩ ⟨2, ![E, D]⟩).window (ix2 e c') 0 = 0 := by
  unfold ScatterDims.window
  exact dif_neg (show (0 : Fin 2) ∉ (List.finRange 2).filter (· ∉ ([0] : List (Fin 2))) by decide)

/-- On the column axis the window coordinate of update `(e, c')` is its column `c'`. -/
theorem window_rows_one (wf : ScatterDims.WF (⟨2, ![N, D]⟩ : Shape) ⟨2, ![E, 1]⟩ ⟨2, ![E, D]⟩ [1] [0] [0] 1)
    (e : Fin E) (c' : Fin D) :
    (⟨[1], [0], [0], 1, wf⟩ : ScatterDims ⟨2, ![N, D]⟩ ⟨2, ![E, 1]⟩ ⟨2, ![E, D]⟩).window (ix2 e c') 1 = c'.val := by
  unfold ScatterDims.window
  refine (dif_pos (show (1 : Fin 2) ∈ (List.finRange 2).filter (· ∉ ([0] : List (Fin 2))) by decide)).trans ?_
  rfl

/-- WHICH UPDATE LANDS WHERE, by rows: update `(e, c')` lands at operand element `(n, c)` exactly when the signed
    index read at `(e, 0)` is `n` and the columns agree. -/
theorem resultIdx_rows_iff (wf : ScatterDims.WF (⟨2, ![N, D]⟩ : Shape) ⟨2, ![E, 1]⟩ ⟨2, ![E, D]⟩ [1] [0] [0] 1)
    (idx : IVec ⟨2, ![E, 1]⟩ w) (e : Fin E) (c' : Fin D) (n : Fin N) (c : Fin D) :
    (⟨[1], [0], [0], 1, wf⟩ : ScatterDims ⟨2, ![N, D]⟩ ⟨2, ![E, 1]⟩ ⟨2, ![E, D]⟩).resultIdx? (ix2 e c') idx
        = some (ix2 n c)
      ↔ (idx (ix2 e 0)).toInt = (n : ℤ) ∧ c' = c := by
  rw [resultIdx_eq_some_iff]
  constructor
  · intro h
    have h0 := h 0
    have h1 := h 1
    rw [start_rows_zero, window_rows_zero] at h0
    rw [start_rows_one, window_rows_one] at h1
    have h0' : (idx (ix2 e 0)).toInt + ((0 : ℕ) : ℤ) = (n.val : ℤ) := h0
    have h1' : (0 : ℤ) + (c'.val : ℤ) = (c.val : ℤ) := h1
    refine ⟨by omega, Fin.ext (by omega)⟩
  · rintro ⟨h0, rfl⟩ a
    match a with
    | ⟨0, _⟩ =>
      show (⟨[1], [0], [0], 1, wf⟩ : ScatterDims ⟨2, ![N, D]⟩ ⟨2, ![E, 1]⟩ ⟨2, ![E, D]⟩).start (ix2 e c') idx 0
        + (((⟨[1], [0], [0], 1, wf⟩ : ScatterDims ⟨2, ![N, D]⟩ ⟨2, ![E, 1]⟩ ⟨2, ![E, D]⟩).window (ix2 e c') 0 : ℕ) : ℤ)
        = (n.val : ℤ)
      rw [start_rows_zero, window_rows_zero]
      omega
    | ⟨1, _⟩ =>
      show (⟨[1], [0], [0], 1, wf⟩ : ScatterDims ⟨2, ![N, D]⟩ ⟨2, ![E, 1]⟩ ⟨2, ![E, D]⟩).start (ix2 e c') idx 1
        + (((⟨[1], [0], [0], 1, wf⟩ : ScatterDims ⟨2, ![N, D]⟩ ⟨2, ![E, 1]⟩ ⟨2, ![E, D]⟩).window (ix2 e c') 1 : ℕ) : ℤ)
        = (c'.val : ℤ)
      rw [start_rows_one, window_rows_one]
      omega

/-- THE ROW SCATTER READ AT `(n, c)`: the operand's element plus the sum, over the update rows `e` whose signed index
    is `n`, of the update's element `(e, c)`. Rows whose index is negative or at least `N` meet no `n` and
    contribute nowhere. -/
theorem scatterAdd_rows_apply {φ : FTy}
    (wf : ScatterDims.WF (⟨2, ![N, D]⟩ : Shape) ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (c : Fin D) :
    Host.scatterAdd (F := Ideal)
        (⟨[1], [0], [0], 1, wf⟩ : ScatterDims ⟨2, ![N, D]⟩ ⟨2, ![E, 1]⟩ ⟨2, ![E, D]⟩) x idx upd (ix2 n c)
      = x (ix2 n c)
        + ∑ e ∈ Finset.univ.filter (fun e : Fin E => (idx (ix2 e 0)).toInt = (n : ℤ)), upd (ix2 e c) := by
  show x (ix2 n c) + ∑ j ∈ Finset.univ.filter (fun j =>
      (⟨[1], [0], [0], 1, wf⟩ : ScatterDims ⟨2, ![N, D]⟩ ⟨2, ![E, 1]⟩ ⟨2, ![E, D]⟩).resultIdx? j idx
        = some (ix2 n c)), upd j = _
  congr 1
  rw [Finset.sum_filter, sum_idx2, Finset.sum_filter]
  refine Finset.sum_congr rfl fun e _ => ?_
  refine (Finset.sum_congr rfl fun b _ => if_congr (resultIdx_rows_iff wf idx e b n c) rfl rfl).trans ?_
  by_cases hq : (idx (ix2 e 0)).toInt = (n : ℤ)
  · simp [hq]
  · simp [hq]

end Rows

section Vec
variable {N E w : Nat}

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- On the vector operand's one axis the window of update `e` starts at the index read at `(e, 0)`, as a signed
    integer. -/
theorem start_vec_zero (wf : ScatterDims.WF (⟨1, ![N]⟩ : Shape) ⟨2, ![E, 1]⟩ ⟨1, ![E]⟩ [] [0] [0] 1)
    (idx : IVec ⟨2, ![E, 1]⟩ w) (e : Fin E) :
    (⟨[], [0], [0], 1, wf⟩ : ScatterDims ⟨1, ![N]⟩ ⟨2, ![E, 1]⟩ ⟨1, ![E]⟩).start (ix1 e) idx 0
      = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- The vector operand's one axis is an inserted window axis: the window coordinate on it is `0`. -/
theorem window_vec_zero (wf : ScatterDims.WF (⟨1, ![N]⟩ : Shape) ⟨2, ![E, 1]⟩ ⟨1, ![E]⟩ [] [0] [0] 1) (e : Fin E) :
    (⟨[], [0], [0], 1, wf⟩ : ScatterDims ⟨1, ![N]⟩ ⟨2, ![E, 1]⟩ ⟨1, ![E]⟩).window (ix1 e) 0 = 0 := by
  unfold ScatterDims.window
  exact dif_neg (show (0 : Fin 1) ∉ (List.finRange 1).filter (· ∉ ([0] : List (Fin 1))) by decide)

/-- WHICH UPDATE LANDS WHERE, for a vector operand: update `e` lands at operand element `n` exactly when the signed
    index read at `(e, 0)` is `n`. -/
theorem resultIdx_vec_iff (wf : ScatterDims.WF (⟨1, ![N]⟩ : Shape) ⟨2, ![E, 1]⟩ ⟨1, ![E]⟩ [] [0] [0] 1)
    (idx : IVec ⟨2, ![E, 1]⟩ w) (e : Fin E) (n : Fin N) :
    (⟨[], [0], [0], 1, wf⟩ : ScatterDims ⟨1, ![N]⟩ ⟨2, ![E, 1]⟩ ⟨1, ![E]⟩).resultIdx? (ix1 e) idx = some (ix1 n)
      ↔ (idx (ix2 e 0)).toInt = (n : ℤ) := by
  rw [resultIdx_eq_some_iff]
  constructor
  · intro h
    have h0 := h 0
    rw [start_vec_zero, window_vec_zero] at h0
    have h0' : (idx (ix2 e 0)).toInt + ((0 : ℕ) : ℤ) = (n.val : ℤ) := h0
    omega
  · intro h0 a
    match a with
    | ⟨0, _⟩ =>
      show (⟨[], [0], [0], 1, wf⟩ : ScatterDims ⟨1, ![N]⟩ ⟨2, ![E, 1]⟩ ⟨1, ![E]⟩).start (ix1 e) idx 0
        + (((⟨[], [0], [0], 1, wf⟩ : ScatterDims ⟨1, ![N]⟩ ⟨2, ![E, 1]⟩ ⟨1, ![E]⟩).window (ix1 e) 0 : ℕ) : ℤ)
        = (n.val : ℤ)
      rw [start_vec_zero, window_vec_zero]
      omega

/-- THE VECTOR SCATTER READ AT `n`: the operand's element plus the sum, over the updates `e` whose signed index is
    `n`, of the update's element `e`. Updates whose index is negative or at least `N` meet no `n` and contribute
    nowhere. -/
theorem scatterAdd_vec_apply {φ : FTy}
    (wf : ScatterDims.WF (⟨1, ![N]⟩ : Shape) ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal)
        (⟨[], [0], [0], 1, wf⟩ : ScatterDims ⟨1, ![N]⟩ ⟨2, ![E, 1]⟩ ⟨1, ![E]⟩) x idx upd (ix1 n)
      = x (ix1 n)
        + ∑ e ∈ Finset.univ.filter (fun e : Fin E => (idx (ix2 e 0)).toInt = (n : ℤ)), upd (ix1 e) := by
  show x (ix1 n) + ∑ j ∈ Finset.univ.filter (fun j =>
      (⟨[], [0], [0], 1, wf⟩ : ScatterDims ⟨1, ![N]⟩ ⟨2, ![E, 1]⟩ ⟨1, ![E]⟩).resultIdx? j idx
        = some (ix1 n)), upd j = _
  congr 1
  rw [Finset.sum_filter, sum_idx1, Finset.sum_filter]
  exact Finset.sum_congr rfl fun e _ => if_congr (resultIdx_vec_iff wf idx e n) rfl rfl

end Vec

end ScatterRows

end
-- ==== Proof.KernelAtEntry.lean ====
/-
  THE KERNEL PROGRAM'S RESULT AT AN ENTRY (at the ideal instance).

  Unpacking undoes the packing: entry (e, c) of the unpacked scaled senders sits at row (16e+c) / 128, lane
  (16e+c) % 128 of the packed array, whose group is ((16e+c) % 128) / 16 = e % 8 and whose row is e / 8: so it is
      senders(e, c) * (cut(lengths(e, 0)) * 1/32).
  The result's first 100000 rows are the segment sum of these rows by receiver, started from zeros; the other
  3100000 rows are zeros.
-/
import proofs.«122796_j82712480186400_2_alg».proof.Proof.KernelResult
import proofs.«122796_j82712480186400_2_alg».proof.Proof.LibScatterRows

set_option maxRecDepth 16384

noncomputable section

namespace Cert.KernelIdeal.Result

open scoped BigOperators
open Idealize.ShloMosaic Idealize.ShloMosaic.ValueIdx
open Cert.KernelIdeal Cert.KernelIdeal.Gen

/-- Entry (e, c) of the scaled senders, unpacked: the sender entry times the scaled cutoff weight of edge e. -/
theorem unpacked_apply (senders : S3200000x16.Idx → EReal) (lengths : S3200000x1.Idx → EReal)
    (h1 : S3200000x16.ShapeCasts S400000x128) (h2 : S3200000x1.ShapeCasts S400000x8)
    (h3 : S400000x128.ShapeCasts S3200000x16) (e : Fin 3200000) (c : Fin 16) :
    shapeCast S3200000x16
        (Scaled.scaledPacked (shapeCast S400000x128 senders h1) (shapeCast S400000x8 lengths h2)) h3 (ix2 e c)
      = senders (ix2 e c)
        * (CutoffSum.cutoff (lengths (ix2 e (0 : Fin 1))) * Ideal.ofBits .f32 0x3D000000#32) := by
  have hq : (e.val * 16 + c.val) % 128 < 128 := Nat.mod_lt _ (by norm_num)
  have hr : (e.val * 16 + c.val) / 128 < 400000 := by omega
  have hg : ((e.val * 16 + c.val) % 128) / 16 < 8 := by omega
  refine (shapeCast_apply _ h3 (ix2 e c)
    (ix2 (⟨(e.val * 16 + c.val) / 128, hr⟩ : Fin 400000) (⟨(e.val * 16 + c.val) % 128, hq⟩ : Fin 128)) ?_).trans ?_
  · rw [Shape.rowMajor_val_two, Shape.rowMajor_val_two]
    show (e.val * 16 + c.val) / 128 * 128 + (e.val * 16 + c.val) % 128 = e.val * 16 + c.val
    omega
  show shapeCast S400000x128 senders h1
        (ix2 (⟨(e.val * 16 + c.val) / 128, hr⟩ : Fin 400000) (⟨(e.val * 16 + c.val) % 128, hq⟩ : Fin 128))
      * (CutoffSum.cutoff (shapeCast S400000x8 lengths h2
          (ix2 (⟨(e.val * 16 + c.val) / 128, hr⟩ : Fin 400000) (⟨((e.val * 16 + c.val) % 128) / 16, hg⟩ : Fin 8)))
        * Ideal.ofBits .f32 0x3D000000#32) = _
  rw [shapeCast_apply senders h1 _ (ix2 e c) (by
      rw [Shape.rowMajor_val_two, Shape.rowMajor_val_two]
      show e.val * 16 + c.val = (e.val * 16 + c.val) / 128 * 128 + (e.val * 16 + c.val) % 128
      omega),
    shapeCast_apply lengths h2 _ (ix2 e (0 : Fin 1)) (by
      rw [Shape.rowMajor_val_two, Shape.rowMajor_val_two]
      show e.val * 1 + 0 = (e.val * 16 + c.val) / 128 * 8 + ((e.val * 16 + c.val) % 128) / 16
      have := c.isLt
      omega)]

/-- Row `e` of the receivers' column is entry `e` of the receivers' vector. -/
theorem receiver_apply (recv : IVec S3200000 32) (e : Fin 3200000) :
    broadcastInDim S3200000x1 ![0] bcast_S3200000_S3200000x1_0 recv (ix2 e (0 : Fin 1)) = recv (ix1 e) :=
  broadcastInDim_apply _ bcast_S3200000_S3200000x1_0 recv (ix2 e (0 : Fin 1)) (ix1 e) (fun a => match a with
    | ⟨0, _⟩ => by show e.val = if (3200000 : Nat) = 1 then 0 else e.val; rw [if_neg (by decide)])

/-- A ROW BELOW 100000: the segment sum of the scaled rows of the edges it receives. -/
theorem result_low (senders : S3200000x16.Idx → EReal) (lengths : S3200000x1.Idx → EReal) (recv : IVec S3200000 32)
    (n : Fin 3200000) (hn : n.val < 100000) (c : Fin 16) :
    resultTerm senders lengths recv (ix2 n c)
      = 0 + ∑ e ∈ Finset.univ.filter (fun e : Fin 3200000 => (recv (ix1 e)).toInt = (n : ℤ)),
              senders (ix2 e c)
                * (CutoffSum.cutoff (lengths (ix2 e (0 : Fin 1))) * Ideal.ofBits .f32 0x3D000000#32) := by
  unfold resultTerm
  refine (concatenate_pair_apply_left (t := S3200000x16) (s₁ := S100000x16) (s₂ := S3100000x16) (0 : Fin 2) _ _
    concatenates_S100000x16_S3100000x16_S3200000x16_d0 (ix2 n c) rfl
    (ix2 (⟨n.val, hn⟩ : Fin 100000) c) (fun b => match b with
      | ⟨0, _⟩ => rfl
      | ⟨1, _⟩ => rfl)).trans ?_
  refine (ScatterRows.scatterAdd_rows_apply _ _ _ _ (⟨n.val, hn⟩ : Fin 100000) c).trans ?_
  refine congrArg₂ (fun a b : EReal => a + b) ?_ ?_
  · exact CutoffSum.ofBits_zero
  · refine Finset.sum_congr (Finset.filter_congr fun e _ => by rw [receiver_apply]) fun e _ => ?_
    exact unpacked_apply senders lengths _ _ _ e c

/-- A ROW FROM 100000 ON: zero. -/
theorem result_high (senders : S3200000x16.Idx → EReal) (lengths : S3200000x1.Idx → EReal) (recv : IVec S3200000 32)
    (n : Fin 3200000) (hn : 100000 ≤ n.val) (c : Fin 16) :
    resultTerm senders lengths recv (ix2 n c) = 0 := by
  unfold resultTerm
  refine (concatenate_pair_apply_right (t := S3200000x16) (s₁ := S100000x16) (s₂ := S3100000x16) (0 : Fin 2) _ _
    concatenates_S100000x16_S3100000x16_S3200000x16_d0 (ix2 n c) rfl rfl (ix2 (⟨n.val - 100000, by have := n.isLt; omega⟩ : Fin 3100000) c) (fun b hb => match b with
      | ⟨0, _⟩ => absurd rfl hb
      | ⟨1, _⟩ => rfl) (by show (n.val - 100000) + 100000 = n.val; omega)).trans ?_
  exact CutoffSum.ofBits_zero

end Cert.KernelIdeal.Result

end
-- ==== Proof.ReferenceAtEntry.lean ====
/-
  THE REFERENCE'S RESULT AT AN ENTRY (at the ideal instance).

  The reference weights every edge's sender row by its cutoff weight, adds each weighted row into the row of the
  node that receives the edge (a segment sum into 3200000 rows that starts from zeros; an edge whose receiver index
  is negative or at least 3200000 is dropped), and scales the finished array by 1/32. So its entry (n, c) is
      (0 + sum over the edges e received by n of senders(e, c) * cut(lengths(e, 0))) * 1/32.
-/
import proofs.«122796_j82712480186400_2_alg».proof.Proof.Gen.ReferenceIdeal.Read
import proofs.«122796_j82712480186400_2_alg».proof.Proof.LibScatterRows
import proofs.«122796_j82712480186400_2_alg».proof.Proof.CutoffSum
import Idealize.ShloMosaic.Lib.ValueIdx

noncomputable section

namespace Cert.ReferenceIdeal.RefValue

open scoped BigOperators
open Idealize.ShloMosaic Idealize.ShloMosaic.ValueIdx Cert.ReferenceIdeal Cert.ReferenceIdeal.Gen
  Cert.ReferenceIdeal.Read

/-- An edge's weight in the reference is the cutoff weight of its length. -/
theorem weight_apply (x1 : FVec Ideal S3200000x1 .f32) (j : S3200000x1.Idx) :
    val_main_v11 (F := Ideal) x1 j = CutoffSum.cutoff (x1 j) := by
  rw [val_main_v11_apply, val_main_v10_apply, val_main_v8_apply, val_main_v6_apply, val_main_v4_apply,
    val_main_v3_apply, val_main_v1_apply, val_main_v0_apply, val_main_v2_apply, val_main_v5_apply,
    val_main_v7_apply, val_main_v9_apply, val_main_call0_v1_apply, val_main_call0_v0_apply, val_main_cst_apply,
    val_main_cst_0_apply, val_main_cst_1_apply, val_main_cst_2_apply, val_main_cst_3_apply, val_main_cst_4_apply]
  rfl

/-- The weighted sender row of edge `e` at column `c`. -/
theorem weighted_apply (x0 : FVec Ideal S3200000x16 .f32) (x1 : FVec Ideal S3200000x1 .f32) (e : Fin 3200000)
    (c : Fin 16) :
    val_main_v13 (F := Ideal) x0 x1 (ix2 e c) = x0 (ix2 e c) * CutoffSum.cutoff (x1 (ix2 e (0 : Fin 1))) := by
  rw [val_main_v13_apply, val_main_v12_apply, weight_apply]
  have hi : idx_main_v12 (ix2 e c) = ix2 e (0 : Fin 1) := by
    funext a
    match a with
    | ⟨0, _⟩ => rfl
    | ⟨1, _⟩ => rfl
  rw [hi]
  rfl

/-- Row `e` of the receivers' column is entry `e` of the receivers' vector. -/
theorem receiver_index (e : Fin 3200000) : idx_main_v15 (ix2 e (0 : Fin 1)) = ix1 e := by
  funext a
  match a with
  | ⟨0, _⟩ => rfl

/-- The receiver index of edge `e`, as the scatter reads it. -/
theorem receiver_apply (x3 : IVec S3200000 32) (e : Fin 3200000) :
    val_main_v15 (F := Ideal) x3 (ix2 e (0 : Fin 1)) = x3 (ix1 e) :=
  (val_main_v15_apply x3 (ix2 e (0 : Fin 1))).trans (by rw [receiver_index])

/-- THE REFERENCE'S RESULT AT (n, c). -/
theorem result_apply (x0 : FVec Ideal S3200000x16 .f32) (x1 : FVec Ideal S3200000x1 .f32) (x3 : IVec S3200000 32)
    (n : Fin 3200000) (c : Fin 16) :
    val_main_v18 (F := Ideal) x0 x1 x3 (ix2 n c)
      = (0 + ∑ e ∈ Finset.univ.filter (fun e : Fin 3200000 => (x3 (ix1 e)).toInt = (n : ℤ)),
              x0 (ix2 e c) * CutoffSum.cutoff (x1 (ix2 e (0 : Fin 1))))
        * Ideal.ofBits .f32 0x3D000000#32 := by
  rw [val_main_v18_apply, val_main_v17_apply, val_main_cst_6_apply]
  show val_main_v16 (F := Ideal) x0 x1 x3 (ix2 n c) * Ideal.ofBits .f32 0x3D000000#32 = _
  refine congrArg (fun z : EReal => z * Ideal.ofBits .f32 0x3D000000#32) ?_
  unfold val_main_v16
  refine (ScatterRows.scatterAdd_rows_apply _ (val_main_v14 (F := Ideal)) (val_main_v15 (F := Ideal) x3)
    (val_main_v13 (F := Ideal) x0 x1) n c).trans ?_
  rw [val_main_v14_apply, val_main_cst_5_apply]
  refine congrArg₂ (fun a b : EReal => a + b) ?_ ?_
  · exact CutoffSum.ofBits_zero
  · refine Finset.sum_congr (Finset.filter_congr fun e _ => by rw [receiver_apply]) fun e _ => ?_
    exact weighted_apply x0 x1 e c

end Cert.ReferenceIdeal.RefValue

end
-- ==== Proof.TwoPrograms.lean ====
/-
  THE TWO PROGRAMS COMPARED, entry by entry (at the ideal instance).

  When every receiver index is below 100000 the two results agree at every entry (n, c):
  for n < 100000 the kernel program has  0 + sum_e s_e * (cut_e * 1/32)  and the reference
  (0 + sum_e s_e * cut_e) * 1/32  over the same edges e (those received by n): one number, by the scaling law;
  for n >= 100000 the kernel program has 0, and the reference sums over no edge at all, (0 + 0) * 1/32 = 0.
-/
import proofs.«122796_j82712480186400_2_alg».proof.Proof.KernelAtEntry
import proofs.«122796_j82712480186400_2_alg».proof.Proof.ReferenceAtEntry

set_option maxRecDepth 16384

noncomputable section

namespace Cert.TwoPrograms

open scoped BigOperators
open Idealize.ShloMosaic Idealize.ShloMosaic.ValueIdx

/-- The two results at entry (n, c), when the receivers are below 100000. -/
theorem entry_agree (senders : Cert.KernelIdeal.S3200000x16.Idx → EReal)
    (lengths : Cert.KernelIdeal.S3200000x1.Idx → EReal) (recv : IVec Cert.KernelIdeal.S3200000 32)
    (hrecv : ∀ e : Fin 3200000, (recv (ix1 e)).toInt < 100000) (n : Fin 3200000) (c : Fin 16) :
    Cert.ReferenceIdeal.Read.val_main_v18 (F := Ideal) senders lengths recv (ix2 n c)
      = Cert.KernelIdeal.Result.resultTerm senders lengths recv (ix2 n c) := by
  rw [Cert.ReferenceIdeal.RefValue.result_apply]
  by_cases hn : n.val < 100000
  · rw [Cert.KernelIdeal.Result.result_low senders lengths recv n hn c]
    exact (CutoffSum.scale_each_eq_scale_sum _ _ _).symm
  · rw [Cert.KernelIdeal.Result.result_high senders lengths recv n (by omega) c]
    have hempty : Finset.univ.filter (fun e : Fin 3200000 => (recv (ix1 e)).toInt = (n : ℤ)) = ∅ :=
      Finset.filter_eq_empty_iff.mpr fun e _ h => by have := hrecv e; omega
    rw [hempty, Finset.sum_empty, add_zero, zero_mul]

/-- The reference's result is the kernel program's, as whole arrays, when the receivers are below 100000. -/
theorem results_agree (senders : Cert.KernelIdeal.S3200000x16.Idx → EReal)
    (lengths : Cert.KernelIdeal.S3200000x1.Idx → EReal) (recv : IVec Cert.KernelIdeal.S3200000 32)
    (hrecv : ∀ e : Fin 3200000, (recv (ix1 e)).toInt < 100000) :
    Cert.ReferenceIdeal.Read.val_main_v18 (F := Ideal) senders lengths recv
      = Cert.KernelIdeal.Result.resultTerm senders lengths recv :=
  funext fun i =>
    (congrArg (Cert.ReferenceIdeal.Read.val_main_v18 (F := Ideal) senders lengths recv) (eq_ix2 i)).trans
      ((entry_agree senders lengths recv hrecv (i 0) (i 1)).trans
        (congrArg (Cert.KernelIdeal.Result.resultTerm senders lengths recv) (eq_ix2 i).symm))

end Cert.TwoPrograms

end
-- ==== Proof.ReceiversBelow.lean ====
/-
  THE RECEIVERS' RANGE, READ OUT OF THE PRECONDITION.

  The precondition's last conjunct says every receiver index, read as a signed integer, is below 100000 (the number
  of nodes): it prints as an "and" over all 3200000 comparisons of a receiver word with the word 100000, and-ed with
  the finiteness conjuncts. When the whole predicate is 1, that conjunct is 1, so every comparison is 1, so every
  receiver word is below 100000 as a signed integer.
-/
import proofs.«122796_j82712480186400_2_alg».proof.Proof.Gen.Pre_finite_inputs
import Idealize.ShloMosaic.Lib.ReduceAll
import Idealize.ShloMosaic.Lib.ValueIdx

set_option maxRecDepth 16384

noncomputable section

namespace Cert.Pre_finite_inputs.Decode

open Idealize.ShloMosaic Idealize.ShloMosaic.ValueIdx Cert.Pre_finite_inputs Cert.Pre_finite_inputs.Gen

instance : Subsingleton S_.Idx := ⟨fun a b => funext fun d => d.elim0⟩

/-- The word 100000, read signed, is the integer 100000. -/
theorem toInt_100000 : (100000#32 : BitVec 32).toInt = 100000 := by decide

/-- Under the precondition every receiver index is below 100000. -/
theorem receivers_lt {F : FTy → Type} [FloatOps F] (x0 : FVec F S3200000x16 .f32) (x1 : FVec F S3200000x1 .f32)
    (x2 : FVec F S3200000x3 .f32) (x3 : IVec S3200000 32)
    (h : Cert.Pre_finite_inputs.fn (F := F) x0 x1 x2 x3 = fun _ => 1#1) (e : Fin 3200000) :
    (x3 (ix1 e)).toInt < 100000 := by
  have h0 := congrFun h ix0
  dsimp only [Cert.Pre_finite_inputs.fn, Cert.Pre_finite_inputs.fn_part1] at h0
  have h1 := (IntOp.andi_eq_one.mp h0).2
  have h2 := Host.reduce_andi_all _ _ _ _ ix0 h1 (ix1 e)
  have h3 := IntOp.cmpi_slt.mp h2
  exact h3.trans_eq toInt_100000

end Cert.Pre_finite_inputs.Decode

end
-- ==== Proof.lean ====
/-
  A cutoff-weighted neighbour sum over 3200000 edges into 3200000 node rows of 16 features: each edge's sender row is
  scaled by the cosine cutoff weight of the edge's length, the scaled rows are summed by receiving node, and the
  sums are divided by 32. The reference does exactly this on the host. The kernel program packs 8 edges to a
  128-lane row, scales each edge's weight by 1/32 inside a gridded region (100 blocks of 4000 packed rows), unpacks,
  sums by receiver into the first 100000 rows only, and fills the other 3100000 rows with zeros.

  The two agree on the extended reals when every receiver index is below 100000 (the precondition's last conjunct:
  the number of nodes): then no edge is received by a row from 100000 on, so the reference's rows there are empty
  sums, zero; and on the first 100000 rows the two differ only in where the factor 1/32 stands, inside the sum or
  outside it, which is one number because multiplication by a finite nonnegative number distributes over a sum of
  extended reals whatever its terms are. Finiteness of the float inputs is not used.

  The frames of the two kernel programs and the reference's run are the generated ones; the idealization rewrote
  nothing, so there is nothing to preserve.
-/
import proofs.«122796_j82712480186400_2_alg».proof.Defs
import proofs.«122796_j82712480186400_2_alg».proof.Proof.Gen.Kernel
import proofs.«122796_j82712480186400_2_alg».proof.Proof.Gen.Kernel.Skeleton
import proofs.«122796_j82712480186400_2_alg».proof.Proof.Gen.Kernel.Launch
import proofs.«122796_j82712480186400_2_alg».proof.Proof.Gen.Kernel.Points
import proofs.«122796_j82712480186400_2_alg».proof.Proof.Gen.Kernel.Frame
import proofs.«122796_j82712480186400_2_alg».proof.Proof.Gen.KernelIdeal
import proofs.«122796_j82712480186400_2_alg».proof.Proof.Gen.KernelIdeal.Skeleton
import proofs.«122796_j82712480186400_2_alg».proof.Proof.Gen.KernelIdeal.Launch
import proofs.«122796_j82712480186400_2_alg».proof.Proof.Gen.KernelIdeal.Points
import proofs.«122796_j82712480186400_2_alg».proof.Proof.Gen.KernelIdeal.Frame
import proofs.«122796_j82712480186400_2_alg».proof.Proof.Gen.ReferenceIdeal
import proofs.«122796_j82712480186400_2_alg».proof.Proof.Gen.Pre_finite_inputs
import proofs.«122796_j82712480186400_2_alg».proof.Proof.Gen.ReferenceIdeal.Run
import proofs.«122796_j82712480186400_2_alg».proof.Proof.Gen.ReferenceIdeal.Read
import proofs.«122796_j82712480186400_2_alg».proof.Proof.TwoPrograms
import proofs.«122796_j82712480186400_2_alg».proof.Proof.ReceiversBelow
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs run, from memories agreeing on the arguments, to one result array: the kernel program's term of
    the arguments, which the reference's term equals when the receivers are below 100000, as the precondition says. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.2]
  exact (Cert.ReferenceIdeal.Read.val_main_v18_eq _ _ _).trans
    (Cert.TwoPrograms.results_agree _ _ _
      (fun e => Cert.Pre_finite_inputs.Decode.receivers_lt _ _ _ _ (hpre c) e))

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
